-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2048 : Shape := ⟨2, ![65536, 2048]⟩
abbrev S_ : Shape := ⟨0, ![]⟩

class Facts : Prop where
  bcast_S_S65536x2048 : S_.BroadcastsInDim S65536x2048 (![] : Fin 0 → Fin S65536x2048.rank)
  reducesTo_S65536x2048_S_d0_1 : S65536x2048.ReducesTo [0, 1] S_
  h_S_ : 0 < S_.numel

variable [Facts]

def fn {F : FTy → Type} [FloatOps F] (main_arg0 : FVec F S65536x2048 .f32) : IVec S_ 1 :=
  let main_v0 : FVec F S65536x2048 .f32 := Host.absf main_arg0
  let main_cst : FVec F S_ .f32 := constant S_ .f32 0x7F800000#32
  let main_v1 : FVec F S65536x2048 .f32 := broadcastInDim S65536x2048 ![] bcast_S_S65536x2048 main_cst
  let main_v2 : IVec S65536x2048 1 := cmpf .olt main_v0 main_v1
  let main_c : IVec S_ 1 := constantI S_ 1 1#1
  let main_v3 : IVec S_ 1 := (fun x v => Host.reduce IntOp.andi x v reducesTo_S65536x2048_S_d0_1 h_S_) main_v2 main_c
  main_v3
-- ==== Kernel.lean ====
abbrev S65536x2048 : Shape := ⟨2, ![65536, 2048]⟩
abbrev S1x1 : Shape := ⟨2, ![1, 1]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 9
  | .vmem => 5
  | .smem => 0
  | _ => 0

abbrev bufTy : (tb : Table) → Fin (tcTables nBuf tb) → BufTy
  | .hbm, ⟨0, _⟩ => ⟨S65536x2048, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S1x1, .f32⟩
  | .local _ .vmem, ⟨3, _⟩ => ⟨S1x1, .f32⟩
  | .local _ .vmem, ⟨4, _⟩ => ⟨S1x2048, .f32⟩
  | _, _ => ⟨S65536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![128], ![false]⟩

def k0_cond3 (i : grid0.Coords) : BitVec 1 :=
  let arg0 : BitVec 32 := BitVec.ofNat 32 (i 0).val
  let c127_i32 : BitVec 32 := 127#32
  let v36 : BitVec 1 := Scalar.cmpi .eq arg0 c127_i32
  let v37 : BitVec 32 := Scalar.extui v36
  let c0_i32_14 : BitVec 32 := 0#32
  let v38 : BitVec 1 := Scalar.cmpi .ne v37 c0_i32_14
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  rotates_S512x2048_d0 : S512x2048.Rotates 0 none
  iota_S512x1_d0_w32 : S512x1.Iotas .tc 32 [0]
  natLt_1_32 : 1 < 32
  reduces_S512x1_S1 : S512x1.Reduces [0] S1
  shapeCasts_S1_S1x1 : S1.ShapeCasts S1x1
  inb_S1x2048_S1x2048_0_0 : ∀ a, (![0, 0] : Fin 2 → Nat) a + S1x2048.size a ≤ S1x2048.size a
  h_S1x2048 : 0 < S1x2048.numel
  slices_S512x2048_o0_0_S1x2048 : S512x2048.Slices ![0, 0] S1x2048
  reduces_S1x2048_S1 : S1x2048.Reduces [1] S1
  slices_S512x2048_o511_0_S1x2048 : S512x2048.Slices ![511, 0] S1x2048
  shapeCasts_S1x2048_S1x2048 : S1x2048.ShapeCasts S1x2048
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S65536x2048.size a
  hwx0_0 : ∀ i : grid0.Coords, EltTy.bits .f32 = 32 ∨ (Rect.block (s := S65536x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond3 i == 1#1) | ⟨_ + 2, h⟩ => absurd h (Nat.not_lt.2 (Nat.le_add_left _ _))

class Facts : Prop extends Facts₀ where

variable [Facts]
-- ==== ReferenceIdeal.lean ====
abbrev S65536x2048 : Shape := ⟨2, ![65536, 2048]⟩
abbrev S_ : Shape := ⟨0, ![]⟩
abbrev S65536 : Shape := ⟨1, ![65536]⟩
abbrev S65536x1 : Shape := ⟨2, ![65536, 1]⟩
abbrev S65535x2048 : Shape := ⟨2, ![65535, 2048]⟩
abbrev S65535 : Shape := ⟨1, ![65535]⟩

abbrev nBuf : Space → Nat
  | .hbm => 23
  | .vmem => 0
  | .smem => 0
  | _ => 0

abbrev bufTy : (tb : Table) → Fin (tcTables nBuf tb) → BufTy
  | .hbm, ⟨0, _⟩ => ⟨S65536x2048, .f32⟩
  | .hbm, ⟨1, _⟩ => ⟨S65536x2048, .f32⟩
  | .hbm, ⟨2, _⟩ => ⟨S_, .f32⟩
  | .hbm, ⟨3, _⟩ => ⟨S65536, .f32⟩
  | .hbm, ⟨4, _⟩ => ⟨S65536x1, .f32⟩
  | .hbm, ⟨5, _⟩ => ⟨S65536x1, .f32⟩
  | .hbm, ⟨6, _⟩ => ⟨S_, .f32⟩
  | .hbm, ⟨7, _⟩ => ⟨S65536x1, .f32⟩
  | .hbm, ⟨8, _⟩ => ⟨S65536x1, .f32⟩
  | .hbm, ⟨9, _⟩ => ⟨S65536x2048, .f32⟩
  | .hbm, ⟨10, _⟩ => ⟨S65536x2048, .f32⟩
  | .hbm, ⟨11, _⟩ => ⟨S65535x2048, .f32⟩
  | .hbm, ⟨12, _⟩ => ⟨S65535x2048, .f32⟩
  | .hbm, ⟨13, _⟩ => ⟨S65535x2048, .f32⟩
  | .hbm, ⟨14, _⟩ => ⟨S_, .f32⟩
  | .hbm, ⟨15, _⟩ => ⟨S65535, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S65536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  reducesTo_S65536x2048_S65536_d1 : S65536x2048.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x2048_0_1 : S65536x1.BroadcastsInDim S65536x2048 (![0, 1] : Fin 2 → Fin S65536x2048.rank)
  slices_S65536x2048_S65535x2048_0_0 : S65536x2048.Slices ![0, 0] S65535x2048
  slices_S65536x2048_S65535x2048_1_0 : S65536x2048.Slices ![1, 0] S65535x2048
  reducesTo_S65535x2048_S65535_d1 : S65535x2048.ReducesTo [1] S65535
  reducesTo_S65535_S_d0 : S65535.ReducesTo [0] S_

variable [Facts₀]

class Facts : Prop extends Facts₀ where

variable [Facts]
-- ==== Proof.Found.lean ====
import proofs.«114410_j48232482734698_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! # What each control case of the body leaves, as the body's arithmetic of what it read

The body keeps two values between grid points: the running sum (one number) and the last normalized row of the
tile before. At the first tile the running sum is set to zero and the tile's inner products are added to it; at
every later tile the inner products are added and then the product across the seam with the row kept from the
tile before; every tile leaves its last normalized row behind; the last tile also copies the running sum out.
Each statement below says that the contents a case leaves in a buffer are the corresponding expression of the
tile `x`, the running sum `s` and the kept row `p` it found. -/

namespace Cert.KernelIdeal.Found

open Cert.KernelIdeal Cert.KernelIdeal.Gen

variable {F : FTy → Type} [FloatOps F]

theorem hz : (![0, 0] : Fin 2 → Nat) = fun _ => 0 := funext fun a => by fin_cases a <;> rfl

/-- First tile, running sum: zero, then the tile's inner products. -/
theorem sum_first (c : Dev nD) (i : grid0.Coords) (a1 : Memref sig .tc .vmem S512x2048 .f32) (h1 : a1.IsWhole)
    (a2 : Memref sig .tc .vmem S1x1 .f32) (h2 : a2.IsWhole) (a3 : Memref sig .tc .vmem S1x1 .f32) (h3 : a3.IsWhole)
    (a4 : Memref sig .tc .vmem S1x2048 .f32) (h4 : a4.IsWhole) (hc0 : cond0_0 i) (hc1 : ¬cond0_1 i) (hc2 : ¬cond0_2 i)
    (x : Vec F S512x2048 .f32) :
    sout0_A_0 c i a1 h1 a2 h2 a3 h3 a4 h4 hc0 hc1 hc2 x = k0_pay3 x (k0_pay1 (F := F)) := by
  unfold sout0_A_0
  rw [View.read_writes_eq_canon _ _ _ (scover0_A_0 c i a1 h1 a2 h2 a3 h3 a4 h4 hc0 hc1 hc2 x)]
  unfold kernelRun0_A
  dsimp only
  sl_unfold_words
  rw [View.canon_cons_unit_zero (S := S1x1) hz, View.readCov_cons_toLoadRect]
  simp only [View.readAt_eq_ld, h1.read_unread, View.ld_unit_zero (S := S512x2048) hz]

/-- First tile, kept row: the tile's last normalized row. -/
theorem row_first (c : Dev nD) (i : grid0.Coords) (a1 : Memref sig .tc .vmem S512x2048 .f32) (h1 : a1.IsWhole)
    (a2 : Memref sig .tc .vmem S1x1 .f32) (h2 : a2.IsWhole) (a3 : Memref sig .tc .vmem S1x1 .f32) (h3 : a3.IsWhole)
    (a4 : Memref sig .tc .vmem S1x2048 .f32) (h4 : a4.IsWhole) (hc0 : cond0_0 i) (hc1 : ¬cond0_1 i) (hc2 : ¬cond0_2 i)
    (x : Vec F S512x2048 .f32) :
    sout0_A_1 c i a1 h1 a2 h2 a3 h3 a4 h4 hc0 hc1 hc2 x = k0_pay5 x := by
  unfold sout0_A_1
  rw [View.read_writes_eq_canon _ _ _ (scover0_A_1 c i a1 h1 a2 h2 a3 h3 a4 h4 hc0 hc1 hc2 x)]
  unfold kernelRun0_A
  dsimp only
  sl_unfold_words
  rw [View.canon_unit_zero (S := S1x2048) hz]
  simp only [View.readAt_eq_ld, h1.read_unread, View.ld_unit_zero (S := S512x2048) hz]

/-- A middle tile, running sum: the sum found, the tile's inner products, then the product across the seam. -/
theorem sum_middle (c : Dev nD) (i : grid0.Coords) (a1 : Memref sig .tc .vmem S512x2048 .f32) (h1 : a1.IsWhole)
    (a2 : Memref sig .tc .vmem S1x1 .f32) (h2 : a2.IsWhole) (a3 : Memref sig .tc .vmem S1x1 .f32) (h3 : a3.IsWhole)
    (a4 : Memref sig .tc .vmem S1x2048 .f32) (h4 : a4.IsWhole) (hc0 : ¬cond0_0 i) (hc1 : cond0_1 i) (hc2 : ¬cond0_2 i)
    (x : Vec F S512x2048 .f32) (s : Vec F S1x1 .f32) (p : Vec F S1x2048 .f32) :
    sout0_B_0 c i a1 h1 a2 h2 a3 h3 a4 h4 hc0 hc1 hc2 x s p = k0_pay4 x p (k0_pay3 x s) := by
  unfold sout0_B_0
  rw [View.read_writes_eq_canon _ _ _ (scover0_B_0 c i a1 h1 a2 h2 a3 h3 a4 h4 hc0 hc1 hc2 x s p)]
  unfold kernelRun0_B
  dsimp only
  sl_unfold_words
  rw [View.canon_cons_unit_zero (S := S1x1) hz, View.readCov_cons_toLoadRect]
  simp only [View.readAt_eq_ld, h1.read_unread, h3.read_unread, h4.read_unread, View.ld_unit_zero (S := S512x2048) hz,
    View.ld_unit_zero (S := S1x1) hz, View.ld_unit_zero (S := S1x2048) hz]

/-- A middle tile, kept row. -/
theorem row_middle (c : Dev nD) (i : grid0.Coords) (a1 : Memref sig .tc .vmem S512x2048 .f32) (h1 : a1.IsWhole)
    (a2 : Memref sig .tc .vmem S1x1 .f32) (h2 : a2.IsWhole) (a3 : Memref sig .tc .vmem S1x1 .f32) (h3 : a3.IsWhole)
    (a4 : Memref sig .tc .vmem S1x2048 .f32) (h4 : a4.IsWhole) (hc0 : ¬cond0_0 i) (hc1 : cond0_1 i) (hc2 : ¬cond0_2 i)
    (x : Vec F S512x2048 .f32) (s : Vec F S1x1 .f32) (p : Vec F S1x2048 .f32) :
    sout0_B_1 c i a1 h1 a2 h2 a3 h3 a4 h4 hc0 hc1 hc2 x s p = k0_pay5 x := by
  unfold sout0_B_1
  rw [View.read_writes_eq_canon _ _ _ (scover0_B_1 c i a1 h1 a2 h2 a3 h3 a4 h4 hc0 hc1 hc2 x s p)]
  unfold kernelRun0_B
  dsimp only
  sl_unfold_words
  rw [View.canon_unit_zero (S := S1x2048) hz]
  simp only [View.readAt_eq_ld, h1.read_unread, View.ld_unit_zero (S := S512x2048) hz]

/-- The last tile, running sum: as at a middle tile. -/
theorem sum_last (c : Dev nD) (i : grid0.Coords) (a1 : Memref sig .tc .vmem S512x2048 .f32) (h1 : a1.IsWhole)
    (a2 : Memref sig .tc .vmem S1x1 .f32) (h2 : a2.IsWhole) (a3 : Memref sig .tc .vmem S1x1 .f32) (h3 : a3.IsWhole)
    (a4 : Memref sig .tc .vmem S1x2048 .f32) (h4 : a4.IsWhole) (hc0 : ¬cond0_0 i) (hc1 : cond0_1 i) (hc2 : cond0_2 i)
    (x : Vec F S512x2048 .f32) (s : Vec F S1x1 .f32) (p : Vec F S1x2048 .f32) :
    sout0_C_0 c i a1 h1 a2 h2 a3 h3 a4 h4 hc0 hc1 hc2 x s p = k0_pay4 x p (k0_pay3 x s) := by
  unfold sout0_C_0
  rw [View.read_writes_eq_canon _ _ _ (scover0_C_0 c i a1 h1 a2 h2 a3 h3 a4 h4 hc0 hc1 hc2 x s p)]
  unfold kernelRun0_C
  dsimp only
  sl_unfold_words
  rw [View.canon_cons_unit_zero (S := S1x1) hz, View.readCov_cons_toLoadRect]
  simp only [View.readAt_eq_ld, h1.read_unread, h3.read_unread, h4.read_unread, View.ld_unit_zero (S := S512x2048) hz,
    View.ld_unit_zero (S := S1x1) hz, View.ld_unit_zero (S := S1x2048) hz]

/-- The last tile, the output block: the running sum just completed, copied out. -/
theorem out_last (c : Dev nD) (i : grid0.Coords) (a1 : Memref sig .tc .vmem S512x2048 .f32) (h1 : a1.IsWhole)
    (a2 : Memref sig .tc .vmem S1x1 .f32) (h2 : a2.IsWhole) (a3 : Memref sig .tc .vmem S1x1 .f32) (h3 : a3.IsWhole)
    (a4 : Memref sig .tc .vmem S1x2048 .f32) (h4 : a4.IsWhole) (hc0 : ¬cond0_0 i) (hc1 : cond0_1 i) (hc2 : cond0_2 i)
    (x : Vec F S512x2048 .f32) (s : Vec F S1x1 .f32) (p : Vec F S1x2048 .f32) :
    out0_C_1 c i a1 h1 a2 h2 a3 h3 a4 h4 hc0 hc1 hc2 x s p = k0_pay4 x p (k0_pay3 x s) := by
  unfold out0_C_1
  rw [View.read_writes_eq_canon _ _ _ (cover0_C_1 c i a1 h1 a2 h2 a3 h3 a4 h4 hc0 hc1 hc2 x s p)]
  unfold kernelRun0_C
  dsimp only
  sl_unfold_words
  rw [View.canon_unit_zero (S := S1x1) hz, View.readCov_cons_toLoadRect, View.readCov_cons_toLoadRect]
  simp only [View.readAt_eq_ld, h1.read_unread, h3.read_unread, h4.read_unread, View.ld_unit_zero (S := S512x2048) hz,
    View.ld_unit_zero (S := S1x1) hz, View.ld_unit_zero (S := S1x2048) hz]

end Cert.KernelIdeal.Found

end
-- ==== Proof.AdjacentCosine.lean ====
/-
  The mathematics of the adjacent-row cosine sum, over the extended reals, with no program in sight.

  For an array of rows `g i` (the rows numbered by the naturals, the entries of a row by `Fin K`), each row is divided by
  its Euclidean norm kept at or above a small floor; `adj g i` is the inner product of the normalized rows `i` and `i + 1`.
  The quantity of interest is the sum of `adj g i` over the first `n` rows. A tiled computation reaches it in pieces:
  a tile of 512 consecutive rows contributes the 511 products inside it (the product of its last row with the row
  wrapped around to its first is multiplied by zero), and between two tiles the product across the seam is added.
  Nothing here needs finiteness: sums are re-bracketed and re-ordered only, and a factor one or zero is removed.
-/
import Idealize.ShloMosaic.PureOps.Ideal
import Idealize.ShloMosaic.PureOps.Ideal.Laws
import Idealize.ShloMosaic.Lib.ValueIdx

noncomputable section

namespace Cert.AdjacentCosine

open Idealize.ShloMosaic

variable {K : ℕ}

/-- The floor under a row's norm (the float word of 1e-12). -/
def floorNorm : EReal := Ideal.ofBits .f32 0x2B8CBCCC#32

/-- Row `i`'s Euclidean norm, kept at or above the floor. -/
def rowNorm (g : ℕ → Fin K → EReal) (i : ℕ) : EReal :=
  max (Ideal.sqrt (∑ c : Fin K, g i c * g i c)) floorNorm

/-- Row `i` divided by its norm. -/
def unitRow (g : ℕ → Fin K → EReal) (i : ℕ) (c : Fin K) : EReal :=
  Ideal.div (g i c) (rowNorm g i)

/-- The inner product of the normalized rows `i` and `i + 1`. -/
def adj (g : ℕ → Fin K → EReal) (i : ℕ) : EReal :=
  ∑ c : Fin K, unitRow g i c * unitRow g (i + 1) c

/-- The sum of the adjacent products over the rows before the last row of tile `n`: rows `0 … 512 n + 510`. -/
def upTo (g : ℕ → Fin K → EReal) (n : ℕ) : EReal :=
  ∑ i ∈ Finset.range (512 * n + 511), adj g i

/-- The 0/1 weight that removes a tile's last row: one on rows 0 … 510, zero on row 511. -/
def keep (r : ℕ) : EReal := (((if r < 511 then (1 : ℤ) else 0 : ℤ) : ℝ) : EReal)

/-- A sum over a tile's 512 rows, each term weighted by `keep`, is the sum over its first 511 rows. -/
theorem sum_keep (f : ℕ → EReal) :
    ∑ r : Fin 512, f r.val * keep r.val = ∑ r ∈ Finset.range 511, f r := by
  rw [Fin.sum_univ_eq_sum_range (fun r => f r * keep r) 512, Finset.sum_range_succ]
  have hlast : f 511 * keep 511 = 0 := by
    unfold keep; rw [if_neg (lt_irrefl _)]; simp
  rw [hlast, add_zero]
  refine Finset.sum_congr rfl fun r hr => ?_
  have hr' : r < 511 := Finset.mem_range.mp hr
  unfold keep; rw [if_pos hr']; simp

/-- Inside a tile the row after row `r < 511` is row `r + 1`: the wrap-around does not act. -/
theorem next_in_tile {r : ℕ} (hr : r < 511) : (r + 1) % 512 = r + 1 := Nat.mod_eq_of_lt (by omega)

/-- The first tile: from zero, its 511 inner products. -/
theorem upTo_zero (g : ℕ → Fin K → EReal) :
    (0 : EReal) + ∑ r ∈ Finset.range 511, adj g (512 * 0 + r) = upTo g 0 := by
  unfold upTo
  rw [zero_add]
  simp only [Nat.mul_zero, Nat.zero_add]

/-- A later tile: to what the tiles before it gave, its 511 inner products and then the product across the seam. -/
theorem upTo_succ (g : ℕ → Fin K → EReal) (n : ℕ) :
    (upTo g n + ∑ r ∈ Finset.range 511, adj g (512 * (n + 1) + r)) + adj g (512 * n + 511) = upTo g (n + 1) := by
  unfold upTo
  have e : ∀ r, 512 * (n + 1) + r = 512 * n + 511 + 1 + r := fun r => by ring
  simp only [e]
  rw [Finset.sum_range_add (fun i => adj g i) (512 * n + 511 + 1) 511,
    Finset.sum_range_succ (fun i => adj g i) (512 * n + 511), add_right_comm]

/-- All 128 tiles: every adjacent pair of the 65536 rows. -/
theorem upTo_last (g : ℕ → Fin K → EReal) : upTo g 127 = ∑ i : Fin 65535, adj g i.val := by
  unfold upTo
  rw [Fin.sum_univ_eq_sum_range (fun i => adj g i) 65535]

/-- The rows of a [65536, 2048] array numbered by the naturals (a number past the last row wraps around; only the
    numbers below 65536 are ever read). -/
def rowsOf (X : (⟨2, ![65536, 2048]⟩ : Shape).Idx → EReal) (i : ℕ) (c : Fin 2048) : EReal :=
  X (ValueIdx.ix2 (⟨i % 65536, Nat.mod_lt _ (by decide)⟩ : Fin 65536) c)

theorem rowsOf_lt (X : (⟨2, ![65536, 2048]⟩ : Shape).Idx → EReal) (i : ℕ) (h : i < 65536) (c : Fin 2048) :
    rowsOf X i c = X (ValueIdx.ix2 (⟨i, h⟩ : Fin 65536) c) :=
  congrArg (fun a : Fin 65536 => X (ValueIdx.ix2 a c)) (Fin.ext (Nat.mod_eq_of_lt h))

/-- The indices of a vector of length `n` are the numbers below `n`. -/
def idx1Equiv (n : ℕ) : Fin n ≃ (⟨1, ![n]⟩ : Shape).Idx where
  toFun i := ValueIdx.ix1 i
  invFun j := j 0
  left_inv _ := rfl
  right_inv j := (ValueIdx.eq_ix1 j).symm

/-- On the extended reals twice a number is the number added to itself. -/
theorem two_mul_ereal (y : EReal) : ((2 : ℝ) : EReal) * y = y + y := by
  have h : ((2 : ℝ) : EReal) = 1 + 1 := by rw [← EReal.coe_one, ← EReal.coe_add]; norm_num
  rw [h, EReal.right_distrib_of_nonneg zero_le_one zero_le_one, one_mul]

/-- The float word of 2.0 is 2; -/
theorem ofBits_two : Ideal.ofBits .f32 0x40000000#32 = ((2 : ℝ) : EReal) := by
  simp [Ideal.ofBits, Ideal.ieee, -EReal.coe_mul]; norm_num

/-- and the float word of 65535.0 is 65535. -/
theorem ofBits_65535 : Ideal.ofBits .f32 0x477FFF00#32 = ((65535 : ℝ) : EReal) := by
  simp [Ideal.ofBits, Ideal.ieee, -EReal.coe_mul]; norm_num

/-- The float zero word is zero. -/
theorem ofBits_zero : Ideal.ofBits .f32 0x00000000#32 = 0 := Ideal.ofBits_zero_f32

/-- The two ways of doubling the mean: `(2 · S) / 65535`, and `S / 65535` added to itself, whatever the extended
    real `S` is: dividing by 65535 is multiplying by a real, and twice a number is the number added to itself. -/
theorem double_mean (w S : EReal) :
    w * Ideal.div (Ideal.ofBits .f32 0x40000000#32 * S) (Ideal.ofBits .f32 0x477FFF00#32)
      = w * (Ideal.div S (Ideal.ofBits .f32 0x477FFF00#32) + Ideal.div S (Ideal.ofBits .f32 0x477FFF00#32)) := by
  rw [ofBits_two, ofBits_65535, Ideal.div_coe (by norm_num), Ideal.div_coe (by norm_num), mul_assoc, two_mul_ereal]

end Cert.AdjacentCosine

end
-- ==== Proof.LibColOps.lean ====
/-
  Column and row forms of rank-2 arrays read at an index, for any element type and any extents, and the sum along the
  second axis read at a row: a vector of length `a` cast to a column [a, 1]; a column [a, 1] broadcast along the rows of
  [a, b]; a kernel's lane sum of an [a, b] array into a vector of length `a`, and the host's sum of the same kind from an
  initial value; the host's placements of a vector as a column, of a vector as a row, of a column along every row and of
  a row down every column.
-/
import Idealize.ShloMosaic.Lib.Pipeline.Value
import Idealize.ShloMosaic.Lib.ValueIdx
import Idealize.ShloMosaic.Lib.IdealHost
import Idealize.ShloMosaic.PureOps.Ideal.Laws

noncomputable section

namespace Cert.LibColOps

open Idealize.ShloMosaic Idealize.ShloMosaic.ValueIdx

variable {α : Type} {a b : ℕ}

/-- Entry `(p, 0)` of the column cast of a vector is the vector's entry `p`: both sit at row-major position `p`. -/
theorem shapeCast_col_apply (x : (⟨1, ![a]⟩ : Shape).Idx → α) (h : (⟨1, ![a]⟩ : Shape).ShapeCasts ⟨2, ![a, 1]⟩) (p : Fin a) :
    shapeCast ⟨2, ![a, 1]⟩ x h (ix2 p (0 : Fin 1)) = x (ix1 p) :=
  shapeCast_apply x h (ix2 p (0 : Fin 1)) (ix1 p) (by
    rw [Shape.rowMajor_val_one, Shape.rowMajor_val_two]
    show p.val = p.val * 1 + 0
    omega)

/-- Entry `(p, q)` of a column broadcast along the rows is the column's entry `(p, 0)`. -/
theorem broadcastTo_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p (0 : Fin 1)) :=
  broadcastTo_apply x h (ix2 p q) (ix2 p (0 : Fin 1)) (fun c => by
    match c with
    | ⟨0, _⟩ =>
      show p.val = if a = 1 then 0 else p.val
      have := p.isLt
      split <;> omega
    | ⟨1, _⟩ => rfl)

/-- The index a sum along axis 1 reads at row `p` and summation coordinate `k` is `(p, k)`. -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- A kernel's lane sum of an [a, b] array at row `p` is the sum of the row's entries. -/
theorem multiReduction_row {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (p : Fin a) :
    multiReduction .add [(1 : Fin 2)] ⟨1, ![a]⟩ src acc h hφ hacc (ix1 p) = ∑ k : Fin b, src (ix2 p k) := by
  rw [Ideal.multiReduction_add_single]
  exact Finset.sum_congr rfl fun k _ => congrArg src (lift_row h p k)

/-- The host's sum along axis 1 of an [a, b] array at row `p`: the initial value plus the sum of the row's entries. -/
theorem hostReduceAdd_row {φ : FTy} (x : FVec Ideal ⟨2, ![a, b]⟩ φ) (init : (⟨0, ![]⟩ : Shape).Idx → Ideal φ)
    (h' : (⟨2, ![a, b]⟩ : Shape).ReducesTo [(1 : Fin 2)] ⟨1, ![a]⟩) (h : (⟨2, ![a, b]⟩ : Shape).Reduces [(1 : Fin 2)] ⟨1, ![a]⟩)
    (hu : 0 < (⟨0, ![]⟩ : Shape).numel) (p : Fin a) :
    Host.reduceAdd x init h' hu (ix1 p) = init ix0 + ∑ k : Fin b, x (ix2 p k) := by
  rw [hostReduceAdd_apply, Ideal.hostReduceAdd_single h' h]
  congr 1
  · exact congrArg init (funext fun c => c.elim0)
  · exact Finset.sum_congr rfl fun k _ => congrArg x (lift_row h p k)

/-- The host places a vector as a column: entry `(p, 0)` is the vector's entry `p`. -/
theorem bcastCol_apply (x : (⟨1, ![a]⟩ : Shape).Idx → α) (h : (⟨1, ![a]⟩ : Shape).BroadcastsInDim ⟨2, ![a, 1]⟩ ![0]) (p : Fin a) :
    broadcastInDim ⟨2, ![a, 1]⟩ ![0] h x (ix2 p (0 : Fin 1)) = x (ix1 p) :=
  broadcastInDim_apply ![0] h x (ix2 p (0 : Fin 1)) (ix1 p) (fun c => by
    match c with
    | ⟨0, _⟩ =>
      show p.val = if a = 1 then 0 else p.val
      have := p.isLt
      split <;> omega)

/-- The host places a vector as a row: entry `(0, q)` is the vector's entry `q`. -/
theorem bcastRow_apply (x : (⟨1, ![b]⟩ : Shape).Idx → α) (h : (⟨1, ![b]⟩ : Shape).BroadcastsInDim ⟨2, ![1, b]⟩ ![1]) (q : Fin b) :
    broadcastInDim ⟨2, ![1, b]⟩ ![1] h x (ix2 (0 : Fin 1) q) = x (ix1 q) :=
  broadcastInDim_apply ![1] h x (ix2 (0 : Fin 1) q) (ix1 q) (fun c => by
    match c with
    | ⟨0, _⟩ =>
      show q.val = if b = 1 then 0 else q.val
      have := q.isLt
      split <;> omega)

/-- The host lays a column along every row: entry `(p, q)` is the column's entry `(p, 0)`. -/
theorem bcastCols_apply (x : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h x (ix2 p q) = x (ix2 p (0 : Fin 1)) :=
  broadcastInDim_apply ![0, 1] h x (ix2 p q) (ix2 p (0 : Fin 1)) (fun c => by
    match c with
    | ⟨0, _⟩ =>
      show p.val = if a = 1 then 0 else p.val
      have := p.isLt
      split <;> omega
    | ⟨1, _⟩ => rfl)

/-- The host lays a row down every column: entry `(p, q)` is the row's entry `(0, q)`. -/
theorem bcastRows_apply (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) :=
  broadcastInDim_apply ![0, 1] h x (ix2 p q) (ix2 (0 : Fin 1) q) (fun c => by
    match c with
    | ⟨0, _⟩ => rfl
    | ⟨1, _⟩ =>
      show q.val = if b = 1 then 0 else q.val
      have := q.isLt
      split <;> omega)

end Cert.LibColOps

end
-- ==== Proof.LibColumnSum.lean ====
/-
  A kernel's sum down the one column of an [a, 1] array into a vector of length one, read at its one entry, over the
  extended reals, for any extent: the sum of the column's entries.
-/
import Idealize.ShloMosaic.Lib.Pipeline.Value
import Idealize.ShloMosaic.Lib.ValueIdx
import Idealize.ShloMosaic.PureOps.Ideal.Laws

noncomputable section

namespace Cert.LibColumnSum

open Idealize.ShloMosaic Idealize.ShloMosaic.ValueIdx

variable {a : ℕ}

/-- The index a sum along axis 0 of an [a, 1] array reads at summation coordinate `k` is `(k, 0)`. -/
theorem lift_col (h : (⟨2, ![a, 1]⟩ : Shape).Reduces [(0 : Fin 2)] ⟨1, ![1]⟩) (k : Fin a) :
    h.lift (ix1 (0 : Fin 1)) k = ix2 k (0 : Fin 1) := by
  funext c
  apply Fin.ext
  match c with
  | ⟨0, _⟩ => rfl
  | ⟨1, _⟩ => rfl

/-- A kernel's sum of an [a, 1] array along axis 0 is, at its one entry, the sum of the column's entries. -/
theorem multiReduction_col {φ : FTy} (src : FVec Ideal ⟨2, ![a, 1]⟩ φ) (acc : BitVec φ.bits)
    (h : (⟨2, ![a, 1]⟩ : Shape).Reduces [(0 : Fin 2)] ⟨1, ![1]⟩) (hφ : FKind.Formats φ) (hacc : acc = FKind.add.neutral φ hφ) :
    multiReduction .add [(0 : Fin 2)] ⟨1, ![1]⟩ src acc h hφ hacc (ix1 (0 : Fin 1)) = ∑ k : Fin a, src (ix2 k (0 : Fin 1)) := by
  rw [Ideal.multiReduction_add_single]
  exact Finset.sum_congr rfl fun k _ => congrArg src (lift_col h k)

end Cert.LibColumnSum

end
-- ==== Proof.AtIndex.lean ====
import proofs.«114410_j48232482734698_1_alg».proof.Proof.Gen.KernelIdeal.Skeleton
import proofs.«114410_j48232482734698_1_alg».proof.Proof.AdjacentCosine
import proofs.«114410_j48232482734698_1_alg».proof.Proof.LibColOps
import proofs.«114410_j48232482734698_1_alg».proof.Proof.LibColumnSum
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

open Idealize.ShloMosaic Idealize.ShloMosaic.TcCoe Idealize.SL.Sem

/-! # The body's arithmetic read entry by entry, over the extended reals

A tile `x` of 512 rows that holds rows `base … base + 511` of an array of rows `g`. Entry `(r, c)` of the
normalized tile is entry `c` of `g`'s normalized row `base + r`; the row the tile leaves behind is its normalized
row 511; the inner products it adds to the running sum are those of rows `base + r` and `base + r + 1` for
`r < 511` (row 511 meets the rotated-in row 0, and is multiplied by zero); the product across the seam is that of
the kept row with the tile's normalized row 0. -/

namespace Cert.KernelIdeal.AtIndex

open Cert.KernelIdeal Cert.KernelIdeal.Gen Idealize.ShloMosaic.ValueIdx Cert.AdjacentCosine

/-- The tile holds rows `base … base + 511` of `g`. -/
def Holds (x : Vec Ideal S512x2048 .f32) (g : ℕ → Fin 2048 → EReal) (base : ℕ) : Prop :=
  ∀ (r : Fin 512) (c : Fin 2048), x (ix2 r c) = g (base + r.val) c

variable (g : ℕ → Fin 2048 → EReal) (base : ℕ)

/-- The normalized tile, entry by entry. -/
theorem unit_at (x : Vec Ideal S512x2048 .f32) (hx : Holds x g base) (r : Fin 512) (c : Fin 2048) :
    k0_pay2 (F := Ideal) x (ix2 r c) = unitRow g (base + r.val) c := by
  unfold k0_pay2 unitRow rowNorm floorNorm
  show Ideal.div (x (ix2 r c)) (broadcastTo S512x2048 _ broadcasts_S512x1_S512x2048 (ix2 r c)) = _
  refine congrArg₂ Ideal.div (hx r c) ?_
  refine (Cert.LibColOps.broadcastTo_col_apply _ _ r c).trans ?_
  show max (Ideal.sqrt (shapeCast S512x1 _ shapeCasts_S512_S512x1 (ix2 r (0 : Fin 1)))) (Ideal.ofBits .f32 0x2B8CBCCC#32) = _
  refine congrArg (fun z => max (Ideal.sqrt z) (Ideal.ofBits .f32 0x2B8CBCCC#32)) ?_
  refine (Cert.LibColOps.shapeCast_col_apply _ _ r).trans ?_
  refine (Cert.LibColOps.multiReduction_row _ _ _ _ _ r).trans ?_
  refine Finset.sum_congr rfl fun k _ => ?_
  show x (ix2 r k) * x (ix2 r k) = _
  rw [hx r k]

/-- The row a tile leaves behind is its last normalized row. -/
theorem kept_at (x : Vec Ideal S512x2048 .f32) (hx : Holds x g base) (c : Fin 2048) :
    k0_pay5 (F := Ideal) x (ix2 (0 : Fin 1) c) = unitRow g (base + 511) c := by
  unfold k0_pay5
  refine (congrFun (shapeCast_self _ _) _).trans ?_
  refine (slice2_axis0_apply 511 _ _ (0 : Fin 1) c (⟨511, by decide⟩ : Fin 512) rfl).trans ?_
  exact unit_at g base x hx ⟨511, by decide⟩ c

/-- The seam: to the running sum found, the inner product of the kept row with the tile's first normalized row. -/
theorem seam_at (x : Vec Ideal S512x2048 .f32) (hx : Holds x g base) (p : Vec Ideal S1x2048 .f32) (s : Vec Ideal S1x1 .f32) :
    k0_pay4 (F := Ideal) x p s (ix2 (0 : Fin 1) (0 : Fin 1))
      = s (ix2 (0 : Fin 1) (0 : Fin 1)) + ∑ k : Fin 2048, p (ix2 (0 : Fin 1) k) * unitRow g base k := by
  unfold k0_pay4
  refine (congrFun (shapeCast_self _ _) _).trans ?_
  show s (ix2 (0 : Fin 1) (0 : Fin 1)) + shapeCast S1x1 _ shapeCasts_S1_S1x1 (ix2 (0 : Fin 1) (0 : Fin 1)) = _
  refine congrArg (fun z => s (ix2 (0 : Fin 1) (0 : Fin 1)) + z) ?_
  refine (Cert.LibColOps.shapeCast_col_apply _ _ (0 : Fin 1)).trans ?_
  refine (Cert.LibColOps.multiReduction_row _ _ _ _ _ (0 : Fin 1)).trans ?_
  refine Finset.sum_congr rfl fun k _ => ?_
  show p (ix2 (0 : Fin 1) k) * extractStridedSlice S1x2048 ![0, 0] (k0_pay2 x) slices_S512x2048_o0_0_S1x2048 (ix2 (0 : Fin 1) k) = _
  refine congrArg (fun z => p (ix2 (0 : Fin 1) k) * z) ?_
  refine (slice2_axis0_apply 0 _ _ (0 : Fin 1) k (⟨0, by decide⟩ : Fin 512) rfl).trans ?_
  exact unit_at g base x hx ⟨0, by decide⟩ k

/-- The word the comparison of a row number below 512 with 511 gives, widened and read signed: one below 511, else zero. -/
theorem keep_word : ∀ k : Fin 512,
    ((IntOp.cmpi .slt (BitVec.ofNat 32 k.val) 511#32).setWidth 32).toInt = if k.val < 511 then (1 : ℤ) else 0 := by
  decide +kernel

/-- The weight the body multiplies row `k`'s inner product by. -/
theorem keep_at (k : Fin 512) :
    (sitofp .f32 (extui 32 (cmpi .slt (iota .tc S512x1 32 [0] iota_S512x1_d0_w32) (broadcast S512x1 511#32)) natLt_1_32)
      : FVec Ideal S512x1 .f32) (ix2 k (0 : Fin 1)) = keep k.val := by
  show ((((IntOp.cmpi .slt (iota .tc S512x1 32 [0] iota_S512x1_d0_w32 (ix2 k (0 : Fin 1))) 511#32).setWidth 32).toInt : ℝ) : EReal) = _
  rw [iota_single_apply]
  show ((((IntOp.cmpi .slt (BitVec.ofNat 32 k.val) 511#32).setWidth 32).toInt : ℝ) : EReal) = _
  rw [keep_word k]
  rfl

/-- Row `k` of the normalized tile against the tile rotated up by one row: the rows `k` and `(k + 1) mod 512`. -/
theorem rolled_at (x : Vec Ideal S512x2048 .f32) (hx : Holds x g base) (k : Fin 512) (c : Fin 2048) :
    dynamicRotate 0 511#32 none (k0_pay2 (F := Ideal) x) rotates_S512x2048_d0 (ix2 k c)
      = unitRow g (base + (k.val + 1) % 512) c := by
  refine (dynamicRotate_apply (0 : Fin 2) 511#32 _ _ (ix2 k c)
    (ix2 (⟨(k.val + 1) % 512, Nat.mod_lt _ (by decide)⟩ : Fin 512) c) (fun b => by
      match b with
      | ⟨0, _⟩ =>
        show (k.val + 1) % 512 = (k.val + 512 - (511#32 : BitVec 32).toNat % 512) % 512
        have hk := k.isLt
        have : (511#32 : BitVec 32).toNat = 511 := by decide
        rw [this]; omega
      | ⟨1, _⟩ => rfl)).trans ?_
  exact unit_at g base x hx ⟨(k.val + 1) % 512, Nat.mod_lt _ (by decide)⟩ c

/-- The tile's own part: to the running sum found, the inner products of its rows `r` and `r + 1` for `r < 511`. -/
theorem within_at (x : Vec Ideal S512x2048 .f32) (hx : Holds x g base) (s : Vec Ideal S1x1 .f32) :
    k0_pay3 (F := Ideal) x s (ix2 (0 : Fin 1) (0 : Fin 1))
      = s (ix2 (0 : Fin 1) (0 : Fin 1)) + ∑ r ∈ Finset.range 511, adj g (base + r) := by
  unfold k0_pay3
  refine (congrFun (shapeCast_self _ _) _).trans ?_
  show s (ix2 (0 : Fin 1) (0 : Fin 1)) + shapeCast S1x1 _ shapeCasts_S1_S1x1 (ix2 (0 : Fin 1) (0 : Fin 1)) = _
  refine congrArg (fun z => s (ix2 (0 : Fin 1) (0 : Fin 1)) + z) ?_
  refine (Cert.LibColOps.shapeCast_col_apply _ _ (0 : Fin 1)).trans ?_
  refine (Cert.LibColumnSum.multiReduction_col _ _ _ _ _).trans ?_
  refine (Finset.sum_congr rfl fun k _ =>
    (?_ : _ = (∑ c : Fin 2048, unitRow g (base + k.val) c * unitRow g (base + (k.val + 1) % 512) c) * keep k.val)).trans ?_
  · show shapeCast S512x1 _ shapeCasts_S512_S512x1 (ix2 k (0 : Fin 1)) * _ = _
    refine congrArg₂ (· * ·) ?_ (keep_at k)
    refine (Cert.LibColOps.shapeCast_col_apply _ _ k).trans ?_
    refine (Cert.LibColOps.multiReduction_row _ _ _ _ _ k).trans ?_
    refine Finset.sum_congr rfl fun c _ => ?_
    show k0_pay2 x (ix2 k c) * dynamicRotate 0 511#32 none (k0_pay2 x) rotates_S512x2048_d0 (ix2 k c) = _
    rw [unit_at g base x hx k c, rolled_at g base x hx k c]
  · refine (sum_keep fun r => ∑ c : Fin 2048, unitRow g (base + r) c * unitRow g (base + (r + 1) % 512) c).trans ?_
    refine Finset.sum_congr rfl fun r hr => ?_
    rw [next_in_tile (Finset.mem_range.mp hr)]
    rfl

/-- The zero the running sum starts from. -/
theorem zero_at : k0_pay1 (F := Ideal) (ix2 (0 : Fin 1) (0 : Fin 1)) = 0 := by
  unfold k0_pay1
  refine (congrFun (shapeCast_self _ _) _).trans ?_
  exact ofBits_zero

end Cert.KernelIdeal.AtIndex

end
-- ==== Proof.KernelValue.lean ====
import proofs.«114410_j48232482734698_1_alg».proof.Proof.Gen.KernelIdeal.Frame
import proofs.«114410_j48232482734698_1_alg».proof.Proof.Found
import proofs.«114410_j48232482734698_1_alg».proof.Proof.AtIndex
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

/-! # What the kernel's program computes, over the extended reals

Grid point `t` is handed rows `512 t … 512 t + 511` of the argument. By induction on the point, after point `n` the
running sum is the sum of the inner products of adjacent normalized rows over rows `0 … 512 n + 510`, and the kept row
is the normalized row `512 n + 511`. The last point copies the running sum — all 65535 adjacent pairs — into the
one-entry output array, and the lines after the region double it, divide it by 65535 and multiply it by the weight. -/

namespace Cert.KernelIdeal.Total

open Cert.KernelIdeal Cert.KernelIdeal.Gen Idealize.ShloMosaic.ValueIdx Cert.AdjacentCosine Cert.KernelIdeal.AtIndex

variable (m : (ℓ : Loc nD τ sig) → Buf (Elt Ideal) ℓ) (ρ : Dev nD → PrngReg)

/-- The argument's rows, numbered by the naturals. -/
def rows (c : Dev nD) : ℕ → Fin 2048 → EReal := rowsOf (m ((c : Thread nD τ).loc main_arg0))

/-- The input window's block at point `t` starts at row block `t`, column block 0. -/
theorem index_in : ∀ t : Fin cfg0.N, win0_0.index t 0 = t.val ∧ win0_0.index t 1 = 0 :=
  (by decide +kernel : ∀ t : Fin grid0.N, win0_0.index t 0 = t.val ∧ win0_0.index t 1 = 0)

/-- Point `t`'s tile holds rows `512 t … 512 t + 511` of the argument. -/
theorem tile_holds (c : Dev nD) (t : Fin cfg0.N) :
    Holds (iblk m c 0 t : Vec Ideal S512x2048 .f32) (rows m c) (512 * t.val) := by
  intro r k
  have hN : t.val < 128 := lt_of_lt_of_eq t.isLt (show cfg0.N = 128 from N_0)
  have hr := r.isLt
  unfold rows
  rw [rowsOf_lt _ (512 * t.val + r.val) (by omega) k]
  unfold iblk
  rw [View.read_apply]
  show V m c main_arg0 _ = m ((c : Thread nD τ).loc main_arg0) _
  unfold V
  congr 1
  funext a
  apply Fin.ext
  match a with
  | ⟨0, _⟩ => show win0_0.index t 0 * 512 + 1 * r.val = 512 * t.val + r.val; rw [(index_in t).1]; omega
  | ⟨1, _⟩ => show win0_0.index t 1 * 2048 + 1 * k.val = k.val; rw [(index_in t).2]; omega

/-- The running sum after point `n`, as the one-entry buffer's contents. -/
def sumAfter (c : Dev nD) (n : ℕ) : Vec Ideal S1x1 .f32 := fun _ => upTo (rows m c) n

/-- The kept row after point `n`. -/
def rowAfter (c : Dev nD) (n : ℕ) : Vec Ideal S1x2048 .f32 := fun j => unitRow (rows m c) (512 * n + 511) (j 1)

/-- Every point leaves its last normalized row. -/
theorem kept_row (c : Dev nD) (t : Fin cfg0.N) : k0_pay5 (F := Ideal) (iblk m c 0 t) = rowAfter m c t.val := by
  funext j
  obtain ⟨p, q, rfl⟩ : ∃ (p : Fin 1) (q : Fin 2048), j = ix2 p q := ⟨j 0, j 1, eq_ix2 j⟩
  obtain rfl : p = 0 := Subsingleton.elim _ _
  exact kept_at (rows m c) (512 * t.val) _ (tile_holds m c t) q

/-- The first point's running sum. -/
theorem first_sum (c : Dev nD) (t : Fin cfg0.N) (ht : t.val = 0) :
    k0_pay3 (F := Ideal) (iblk m c 0 t) (k0_pay1 (F := Ideal)) = sumAfter m c 0 := by
  funext j
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  rw [within_at (rows m c) (512 * t.val) _ (tile_holds m c t), zero_at, ht]
  exact upTo_zero (rows m c)

/-- A later point's running sum, from what the point before left. -/
theorem later_sum (c : Dev nD) (t : Fin cfg0.N) (n : ℕ) (ht : t.val = n + 1)
    (s : Vec Ideal S1x1 .f32) (p : Vec Ideal S1x2048 .f32) (hs : s = sumAfter m c n) (hp : p = rowAfter m c n) :
    k0_pay4 (F := Ideal) (iblk m c 0 t) p (k0_pay3 (F := Ideal) (iblk m c 0 t) s) = sumAfter m c (n + 1) := by
  subst hs hp
  funext j
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  rw [seam_at (rows m c) (512 * t.val) _ (tile_holds m c t), within_at (rows m c) (512 * t.val) _ (tile_holds m c t), ht]
  show (upTo (rows m c) n + ∑ r ∈ Finset.range 511, adj (rows m c) (512 * (n + 1) + r))
      + ∑ k : Fin 2048, unitRow (rows m c) (512 * n + 511) k * unitRow (rows m c) (512 * (n + 1)) k = upTo (rows m c) (n + 1)
  rw [← upTo_succ (rows m c) n]
  unfold adj
  rw [show 512 * n + 511 + 1 = 512 * (n + 1) by ring]

/-- After point `n`: the running sum and the kept row. -/
theorem state_after (c : Dev nD) : ∀ (n : ℕ) (h : n < cfg0.N), n < 127 →
    (outsAt0 m c n h).2.1 = sumAfter m c n ∧ (outsAt0 m c n h).2.2 = rowAfter m c n
  | 0, h, _ => by
    rw [outsAt0_A m c ⟨0, h⟩ rfl (by dsimp only; omega) (by dsimp only; omega)]
    dsimp only
    rw [Found.sum_first, Found.row_first]
    exact ⟨first_sum m c ⟨0, h⟩ rfl, kept_row m c ⟨0, h⟩⟩
  | n + 1, h, hlt => by
    have ih := state_after c n (Nat.lt_of_succ_lt h) (by omega)
    have h0 : ¬(⟨n + 1, h⟩ : Fin cfg0.N).val % 128 = 0 := by dsimp only; omega
    have h1 : 1 ≤ (⟨n + 1, h⟩ : Fin cfg0.N).val := by dsimp only; omega
    have h2 : ¬(⟨n + 1, h⟩ : Fin cfg0.N).val % 128 = 127 := by dsimp only; omega
    rw [outsAt0_B m c ⟨n + 1, h⟩ h0 h1 h2]
    dsimp only
    rw [Found.sum_middle, Found.row_middle]
    exact ⟨later_sum m c ⟨n + 1, h⟩ n rfl _ _ ih.1 ih.2, kept_row m c ⟨n + 1, h⟩⟩

/-- The last point. -/
abbrev tLast : Fin cfg0.N := ⟨127, by decide⟩

/-- What the last point copies out: the sum over all 65535 adjacent pairs. -/
theorem out_last (c : Dev nD) (t : Fin cfg0.N) (h127 : t.val = 127) :
    (outsAt0 m c t.val t.isLt).1 = sumAfter m c 127 := by
  have hN : cfg0.N = 128 := N_0
  have h0 : ¬t.val % 128 = 0 := by omega
  have h1 : 1 ≤ t.val := by omega
  have h2 : t.val % 128 = 127 := by omega
  have ih := state_after m c (t.val - 1) (Nat.lt_of_le_of_lt (Nat.sub_le _ _) t.isLt) (by omega)
  rw [outsAt0_C m c t h0 h1 h2]
  dsimp only
  rw [Found.out_last]
  refine (later_sum m c t (t.val - 1) (by omega) _ _ ih.1 ih.2).trans ?_
  rw [show t.val - 1 + 1 = 127 by omega]

/-- The output window's one block sits at the array's origin at every point. -/
theorem index_out : ∀ t : Fin cfg0.N, win0_1.index t 0 = 0 ∧ win0_1.index t 1 = 0 :=
  (by decide +kernel : ∀ t : Fin grid0.N, win0_1.index t 0 = 0 ∧ win0_1.index t 1 = 0)

/-- The sum over all adjacent pairs, as the output array's contents. -/
abbrev total (c : Dev nD) : Buf (Elt Ideal) ((c : Thread nD τ).loc main_v0) := sumAfter m c 127

/-- The one write-back, at the last point, writes it: the block is the whole one-entry array. -/
theorem flushed_eq (c : Dev nD) (t : Fin cfg0.N) (hf : (cfg0.win 1).flush t = true) :
    (dats m 0 c).flushed 1 t = ((cfg0.win 1).blk t).view.read (Elt Ideal) (total m c) := by
  have hN : cfg0.N = 128 := N_0
  have h127 : t.val = 127 := by have := (flush0_1 t).mp hf; have := t.isLt; omega
  obtain rfl : t = tLast := Fin.ext h127
  show (cfg0.win 1).cut (grid0.coords tLast) ((dats m 0 c).after 1 tLast) = _
  rw [after0_1, out_last m c tLast rfl]
  have hz' : (fun a => win0_1.index tLast a * main_v0.ty.shape.size a) = fun _ => 0 := funext fun a => by fin_cases a <;> decide
  exact (Memref.read_access_unit_zero (Elt Ideal) main_v0 hz' (fun a => by rw [congrFun hz' a]; simp) (total m c)).symm

/-- So the output array ends holding the sum over all adjacent pairs. -/
theorem final (c : Dev nD) : (dats m 0 c).arrAt 1 cfg0.N = total m c :=
  (dats m 0 c).arrAt_eq_of_cover 1 (total m c) (flushed_eq m c) fun i =>
    ⟨tLast, (flush0_1 tLast).mpr rfl, by
      show i ∈ ((View.whole main_v0).slice (win0_1.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 1 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 1 from by decide +kernel]; omega⟩

/-- The lines after the region, as one function of the output array: doubled, divided by 65535, times the weight. -/
def scaled (y : (⟨S1x1, .f32⟩ : BufTy).Contents (Elt Ideal)) : (⟨S_, .f32⟩ : BufTy).Contents (Elt Ideal) :=
  mulf (constant (F := Ideal) S_ .f32 0xBC23D70A#32)
    (Host.divf (F := Ideal) (mulf (constant (F := Ideal) S_ .f32 0x40000000#32) (shapeCast S_ y shapeCasts_S1x1_S_))
      (constant (F := Ideal) S_ .f32 0x477FFF00#32))

/-- The program's result after the lines that follow the region. -/
theorem tail_eq (c : Dev nD) :
    Pipeline.afterTail₀ cfgs (dats m) 0 (V0 m) [hostOps1] c main_v4 = scaled (total m c) := by
  have e : Pipeline.withArrays (cfgs 0).spec c (V0 m c) (fun w => (dats m 0 c).arrAt w (cfgs 0).N) (Proc.devRef .tc main_v0)
      = total m c := (Pipeline.withArrays_arr spec0 launch0.win.arr_inj c _ _ 1).trans (final m c)
  unfold Pipeline.afterTail₀
  show StableHlo.after hostOps1 _ (Proc.devRef .tc main_v4) = _
  after_results
  rw [e]
  rfl

/-- The scaled total, entry by entry: the weight times twice the sum over all adjacent pairs divided by 65535,
    written with the quotient added to itself. -/
theorem scaled_total (c : Dev nD) :
    scaled (total m c) = fun _ =>
      Ideal.ofBits .f32 0xBC23D70A#32 *
        (Ideal.div (∑ i : Fin 65535, adj (rows m c) i.val) (Ideal.ofBits .f32 0x477FFF00#32)
          + Ideal.div (∑ i : Fin 65535, adj (rows m c) i.val) (Ideal.ofBits .f32 0x477FFF00#32)) := by
  funext j
  show Ideal.ofBits .f32 0xBC23D70A#32
      * Ideal.div (Ideal.ofBits .f32 0x40000000#32 * upTo (rows m c) 127) (Ideal.ofBits .f32 0x477FFF00#32) = _
  rw [upTo_last, double_mean]

/-- The result buffer is outside the region: no window's array, and not scoped. -/
theorem result_bypasses : main_v4 ∈ Pipeline.restRefs sig (cfgs 0).spec :=
  Pipeline.mem_restRefs_of main_v4 rfl (fun w => by fin_cases w <;> decide)

/-- The program's run, read: the result at the scaled total, the argument unchanged. -/
theorem run : θ_run defs (onTc (τ := τ) (main (F := Ideal))) ⟨m, fun _ => 0, ρ⟩ fun r => ∀ c : Dev nD,
      r.2.mem ((c.tc : Thread nD τ).loc main_v4) = scaled (total m c)
      ∧ r.2.mem ((c.tc : Thread nD τ).loc main_arg0) = m ((c.tc : Thread nD τ).loc main_arg0) :=
  (θ_run defs _ _).mono (fun _ h c => ⟨((h c).2 main_v4 result_bypasses).trans (tail_eq m c),
      ((h c).1 0).trans (((dats m 0 c).arrAt_in 0 rfl _).trans ((A_eq m c 0).trans (V_main_arg0 m c)))⟩)
    (run_main m ρ)

end Cert.KernelIdeal.Total

end
-- ==== Proof.RefTerm.lean ====
import proofs.«114410_j48232482734698_1_alg».proof.Proof.Gen.ReferenceIdeal.Read
import proofs.«114410_j48232482734698_1_alg».proof.Proof.AdjacentCosine
import Idealize.ShloMosaic.Lib.ValueIdx

noncomputable section

open Idealize.ShloMosaic Idealize.ShloMosaic.TcCoe Idealize.SL.Sem

/-! # The reference's result, over the extended reals

The reference normalizes every row of the whole array, multiplies rows `0 … 65534` entry by entry with rows
`1 … 65535`, sums each product row and then all the row sums, divides by 65535, adds the quotient to itself and
multiplies by the weight. Read one operation at a time, that is the weight times `S / 65535 + S / 65535` with `S` the
sum over `i < 65535` of the inner products of the normalized rows `i` and `i + 1`. -/

namespace Cert.ReferenceIdeal.Term

open Cert.ReferenceIdeal Cert.ReferenceIdeal.Read Idealize.ShloMosaic.ValueIdx Cert.AdjacentCosine

/-- The normalized array, entry by entry. -/
theorem unit_at (x0 : (⟨S65536x2048, .f32⟩ : BufTy).Contents (Elt Ideal)) (a : Fin 65536) (k : Fin 2048) :
    val_main_v4 (F := Ideal) x0 (ix2 a k) = unitRow (rowsOf x0) a.val k := by
  have e3 : idx_main_v3 (ix2 a k) = ix2 a (0 : Fin 1) :=
    funext fun d => Fin.ext (by match d with | ⟨0, _⟩ => rfl | ⟨1, _⟩ => rfl)
  have e2 : idx_main_call0_v2 (ix2 a (0 : Fin 1)) = ix1 a :=
    funext fun d => Fin.ext (by match d with | ⟨0, _⟩ => rfl)
  have ei : ∀ k' : Fin 2048, idx_main_call0_v1 (ix1 a) k' = ix2 a k' := fun k' =>
    funext fun d => Fin.ext (by match d with | ⟨0, _⟩ => rfl | ⟨1, _⟩ => rfl)
  have er : ∀ k' : Fin 2048, rowsOf x0 a.val k' = x0 (ix2 a k') := fun k' => rowsOf_lt x0 a.val a.isLt k'
  rw [val_main_v4_apply, val_main_v3_apply, e3, val_main_v2_apply, val_main_v0_apply, val_main_call0_v2_apply, e2,
    val_main_call0_v1_apply, val_main_v1_apply, val_main_cst_apply, val_main_call0_cst_apply]
  unfold unitRow rowNorm floorNorm
  simp only [Ideal.hostDivf_def, Ideal.maximumf_def, Ideal.hostUnary_sqrt_def, Ideal.ofBits_def, ofBits_zero, zero_add,
    val_main_call0_v0_apply, Ideal.mulf_def, er, ei]

/-- Row `i` of the products, summed: the inner product of the normalized rows `i` and `i + 1`. -/
theorem adj_at (x0 : (⟨S65536x2048, .f32⟩ : BufTy).Contents (Elt Ideal)) (i : Fin 65535) :
    val_main_v8 (F := Ideal) x0 (ix1 i) = adj (rowsOf x0) i.val := by
  rw [val_main_v8_apply, val_main_cst_0_apply]
  unfold adj
  simp only [Ideal.ofBits_def, ofBits_zero, zero_add]
  refine Finset.sum_congr rfl fun k _ => ?_
  have e5 : idx_main_v5 (idx_main_v8 (ix1 i) k) = ix2 (⟨i.val, Nat.lt_of_lt_of_le i.isLt (by decide)⟩ : Fin 65536) k :=
    funext fun d => Fin.ext (by match d with | ⟨0, _⟩ => rfl | ⟨1, _⟩ => rfl)
  have e6 : idx_main_v6 (idx_main_v8 (ix1 i) k) = ix2 (⟨i.val + 1, Nat.succ_lt_succ i.isLt⟩ : Fin 65536) k :=
    funext fun d => Fin.ext (by match d with | ⟨0, _⟩ => exact Nat.add_comm 1 i.val | ⟨1, _⟩ => rfl)
  rw [val_main_v7_apply, val_main_v5_apply, val_main_v6_apply, e5, e6, unit_at, unit_at]
  rfl

/-- The reference's result. -/
theorem value (x0 : (⟨S65536x2048, .f32⟩ : BufTy).Contents (Elt Ideal)) :
    val_main_v12 (F := Ideal) x0 = fun _ =>
      Ideal.ofBits .f32 0xBC23D70A#32 *
        (Ideal.div (∑ i : Fin 65535, adj (rowsOf x0) i.val) (Ideal.ofBits .f32 0x477FFF00#32)
          + Ideal.div (∑ i : Fin 65535, adj (rowsOf x0) i.val) (Ideal.ofBits .f32 0x477FFF00#32)) := by
  funext j
  rw [val_main_v12_apply, val_main_v11_apply, val_main_v10_apply, val_main_v9_apply, val_main_cst_3_apply,
    val_main_cst_2_apply, val_main_cst_1_apply]
  simp only [Ideal.mulf_def, Ideal.addf_def, Ideal.hostDivf_def, Ideal.ofBits_def, ofBits_zero, zero_add]
  rw [← Equiv.sum_comp (idx1Equiv 65535) (fun j => val_main_v8 (F := Ideal) x0 j)]
  have e : ∀ i : Fin 65535, val_main_v8 (F := Ideal) x0 (idx1Equiv 65535 i) = adj (rowsOf x0) i.val := fun i => adj_at x0 i
  simp only [e]

end Cert.ReferenceIdeal.Term

end
-- ==== Proof.lean ====
/-
  The certificate of the adjacent-row cosine regularizer: a kernel that streams the [65536, 2048] argument once in 128
  tiles of 512 rows, against the reference that normalizes the whole array and sums the products of neighbouring rows.

  Both programs divide every row by its Euclidean norm (kept at or above the floor 1e-12), and both end at
  `-0.01 · 2 · S / 65535`, where `S` is the sum over `i < 65535` of the inner products of the normalized rows `i` and
  `i + 1`. The reference forms `S` at once; the kernel accumulates it tile by tile: inside a tile the 511 products of
  neighbouring rows (the tile is rotated up by one row, and the wrapped last row is multiplied by zero), between two tiles
  the product of the last row kept from the tile before with the first row of the next. Over the extended reals these
  are the same sum re-bracketed, and doubling before dividing is adding the quotient to itself; no finiteness is used.

  The three frames are the generated ones (the reference's is its generated run with the result dropped); the ideal
  pass rewrote nothing, so the kernel's idealization is its own text; the equality of the two results is
  `KernelValue.lean` (the kernel's side, over the generated frame run), `RefTerm.lean` (the reference's side, over the
  generated reading of its run) and `AdjacentCosine.lean` (the sums).
-/
import proofs.«114410_j48232482734698_1_alg».proof.Defs
import proofs.«114410_j48232482734698_1_alg».proof.Proof.Gen.Kernel
import proofs.«114410_j48232482734698_1_alg».proof.Proof.Gen.Kernel.Frame
import proofs.«114410_j48232482734698_1_alg».proof.Proof.Gen.KernelIdeal
import proofs.«114410_j48232482734698_1_alg».proof.Proof.Gen.KernelIdeal.Frame
import proofs.«114410_j48232482734698_1_alg».proof.Proof.Gen.ReferenceIdeal
import proofs.«114410_j48232482734698_1_alg».proof.Proof.Gen.ReferenceIdeal.Run
import proofs.«114410_j48232482734698_1_alg».proof.Proof.Gen.ReferenceIdeal.Read
import proofs.«114410_j48232482734698_1_alg».proof.Proof.Gen.Pre_finite_inputs
import proofs.«114410_j48232482734698_1_alg».proof.Proof.KernelValue
import proofs.«114410_j48232482734698_1_alg».proof.Proof.RefTerm

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the argument, both programs end at the weight times `S / 65535 + S / 65535` of the
    same rows. -/
theorem algebraic : Cert.algebraic_KernelIdeal_ReferenceIdeal := by
  intro m ρ m' ρ' _ hagree
  refine ⟨fun c => Cert.KernelIdeal.Total.scaled (Cert.KernelIdeal.Total.total m c), Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Term.value, hagree c]
  exact (Cert.KernelIdeal.Total.scaled_total m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
